-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x2048 : Shape := ⟨2, ![1024, 2048]⟩
abbrev S256x2048 : Shape := ⟨2, ![256, 2048]⟩
abbrev S1024x1 : Shape := ⟨2, ![1024, 1]⟩
abbrev S1x256 : Shape := ⟨2, ![1, 256]⟩
abbrev S1024x256 : Shape := ⟨2, ![1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S4096x4096, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S1024x1, .f32⟩
  | .local _ .vmem, ⟨5, _⟩ => ⟨S1024x1, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  inb_S1024x2048_S1024x2048_0_0 : ∀ a, (![0, 0] : Fin 2 → Nat) a + S1024x2048.size a ≤ S1024x2048.size a
  h_S1024x2048 : 0 < S1024x2048.numel
  inb_S256x2048_S256x2048_0_0 : ∀ a, (![0, 0] : Fin 2 → Nat) a + S256x2048.size a ≤ S256x2048.size a
  h_S256x2048 : 0 < S256x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1024x1_S1024x256 : S1024x1.Broadcasts S1024x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x4096.size a
  hwx0_4 : ∀ i : grid0.Coords, EltTy.bits .f32 = 32 ∨ (Rect.block (s := S4096x4096) S1024x256.size (cc0_transform_4 i) (hinb0_4 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.Gaussian.lean ====
/-
  The Gaussian kernel matrix of two families of 4096 points of dimension 2048, over the extended reals.

  For points x_r and c_j the squared distance is expanded as |x_r|² + |c_j|² − 2·⟨x_r, c_j⟩, and the matrix entry
  is exp(γ · that), γ the float word for −0.05.  Each squared length is a sum of 2048 squares started from the float
  zero word; the inner product is the plain sum of 2048 products.  The two float words (2 and γ) are kept as the
  extended reals their bit patterns denote: both programs carry the same words, so they are never evaluated.
  Nothing here depends on how a program tiles or orders the sums: addition and multiplication of extended reals are
  commutative and associative, so a sum over a finite index type is one value.
-/
import Idealize.ShloMosaic.PureOps.Ideal
import Idealize.ShloMosaic.Lib.ValueIdx

noncomputable section

namespace Gaussian

open Idealize.ShloMosaic Idealize.ShloMosaic.ValueIdx

/-- A family of 4096 points of dimension 2048, one point per row. -/
abbrev Points : Type := (⟨2, ![4096, 2048]⟩ : Shape).Idx → EReal

/-- The squared length of point `r`: the float zero the sum starts from, plus the sum of the squares of its coordinates. -/
def sqLen (x : Points) (r : Fin 4096) : EReal :=
  Ideal.ofBits .f32 0x00000000#32 + ∑ k : Fin 2048, x (ix2 r k) * x (ix2 r k)

/-- The inner product of point `r` of `x` and point `j` of `c`. -/
def inner (x c : Points) (r j : Fin 4096) : EReal :=
  ∑ k : Fin 2048, x (ix2 r k) * c (ix2 j k)

/-- The Gaussian of a squared distance given by its three parts: `exp (γ · ((a + b) − 2 · s))`. -/
def ofParts (a b s : EReal) : EReal :=
  Ideal.exp (Ideal.ofBits .f32 0xBD4CCCCD#32 * ((a + b) - Ideal.ofBits .f32 0x40000000#32 * s))

/-- Entry `(r, j)` of the kernel matrix. -/
def entry (x c : Points) (r j : Fin 4096) : EReal :=
  ofParts (sqLen x r) (sqLen c j) (inner x c r j)

/-- The whole 4096 × 4096 matrix. -/
def matrix (x c : Points) : (⟨2, ![4096, 4096]⟩ : Shape).Idx → EReal :=
  fun i => entry x c (i 0) (i 1)

theorem matrix_ix2 (x c : Points) (r j : Fin 4096) : matrix x c (ix2 r j) = entry x c r j := rfl

end Gaussian

end
-- ==== Proof.TileEntry.lean ====
/-
  One entry of the tile the kernel body stores.

  The body loads a block of 1024 rows of x, a block of 256 rows of c, the 1024 squared lengths of those rows of x as a
  column and the 256 squared lengths of those rows of c as a row.  It contracts the two blocks along the coordinate
  axis (row p of the first with row q of the second), spreads the column along the rows and the row along the
  columns, and stores exp(γ · ((column + row) − 2 · contraction)).  Read at (p, q) that is the Gaussian of the three
  parts: squared length p of the column, squared length q of the row, and the sum over k of x(p, k) · c(q, k).
  The change of float format before the contraction is the identity on extended reals, and the contraction starts
  from the zero word, which denotes 0.
-/
import proofs.«134207_j30511447670912_2_alg».proof.Proof.Gen.KernelIdeal.Skeleton
import proofs.«134207_j30511447670912_2_alg».proof.Proof.Gaussian
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- A column `[a, 1]` spread to `[a, b]` reads, at `(p, q)`, the column's entry `p`. -/
theorem column_spread_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The contraction's dimension record: both operands are contracted along their second axis. -/
abbrev dims := dot_S1024x2048_S256x2048_S1024x256_1_1_0_0_n_n

theorem lhs_row (i : S1024x256.Idx) (q : dims.contr.Idx) : (dims.lhsIdx i q 0).val = (i 0).val := by
  unfold DotDims.lhsIdx
  rw [dif_neg (show ¬(0 : Fin S1024x2048.rank) ∈ dims.lhsBatch by decide),
    dif_pos (show (0 : Fin S1024x2048.rank) ∈ dims.lhsNonContracting by decide)]
  rfl

theorem rhs_row (i : S1024x256.Idx) (q : dims.contr.Idx) : (dims.rhsIdx i q 0).val = (i 1).val := by
  unfold DotDims.rhsIdx
  rw [dif_neg (show ¬(0 : Fin S256x2048.rank) ∈ dims.rhsBatch by decide),
    dif_pos (show (0 : Fin S256x2048.rank) ∈ dims.rhsNonContracting by decide)]
  rfl

/-- The contraction into the zero tile, read at `(p, q)`: the sum over the 2048 coordinates of row `p` of the left
    block times row `q` of the right block. -/
theorem contraction_apply (l : FVec Ideal S1024x2048 .bf16) (r : FVec Ideal S256x2048 .bf16) (p : Fin 1024) (q : Fin 256) :
    matmul dims none l r (constant (F := Ideal) S1024x256 .f32 0x00000000#32) (ix2 p q)
      = ∑ k : Fin 2048, l (ix2 p k) * r (ix2 q k) := by
  simp only [matmul]
  rw [Ideal.matmul_constant_zero_apply, ← Equiv.sum_comp (contrEquiv1 dims 2048 rfl rfl).symm]
  refine Finset.sum_congr rfl fun k _ => ?_
  have hk := contrEquiv1_symm_val dims 2048 rfl rfl k
  have el : dims.lhsIdx (ix2 p q) ((contrEquiv1 dims 2048 rfl rfl).symm k) = ix2 p k := funext fun a => Fin.ext (by
    match a with
    | ⟨0, _⟩ => exact lhs_row _ _
    | ⟨1, _⟩ => exact (dims.lhsIdx_val_of_single rfl _ _).trans hk)
  have er : dims.rhsIdx (ix2 p q) ((contrEquiv1 dims 2048 rfl rfl).symm k) = ix2 q k := funext fun a => Fin.ext (by
    match a with
    | ⟨0, _⟩ => exact rhs_row _ _
    | ⟨1, _⟩ => exact (dims.rhsIdx_val_of_single rfl _ _).trans hk)
  rw [el, er]

/-- THE TILE'S ENTRY: what the body stores at `(p, q)`, from the four loaded blocks. -/
theorem entry_eq (x0 : Vec Ideal S1024x2048 .f32) (x1 : Vec Ideal S256x2048 .f32) (x2 : Vec Ideal S1024x1 .f32)
    (x3 : Vec Ideal S1x256 .f32) (p : Fin 1024) (q : Fin 256) :
    k0_pay1 (F := Ideal) x0 x1 x2 x3 (ix2 p q)
      = Gaussian.ofParts (x2 (ix2 p (0 : Fin 1))) (x3 (ix2 (0 : Fin 1) q)) (∑ k : Fin 2048, x0 (ix2 p k) * x1 (ix2 q k)) := by
  unfold k0_pay1 Gaussian.ofParts
  show Ideal.exp (Ideal.ofBits .f32 0xBD4CCCCD#32
      * ((broadcastTo S1024x256 (shapeCast S1024x1 x2 shapeCasts_S1024x1_S1024x1) broadcasts_S1024x1_S1024x256 (ix2 p q)
          + broadcastTo S1024x256 (shapeCast S1x256 x3 shapeCasts_S1x256_S1x256) broadcasts_S1x256_S1024x256 (ix2 p q))
        - Ideal.ofBits .f32 0x40000000#32
          * matmul dims none (truncf .bf16 x0 bitsLt_bf16_f32) (truncf .bf16 x1 bitsLt_bf16_f32)
              (constant (F := Ideal) S1024x256 .f32 0x00000000#32) (ix2 p q))) = _
  rw [shapeCast_self, shapeCast_self, column_spread_apply, broadcastTo_1b_ab_apply, contraction_apply]
  rfl

end Cert.KernelIdeal.Tile

end
-- ==== Proof.SquaredLengths.lean ====
/-
  The two arrays of squared lengths the region is launched on.

  Before the region the program multiplies x by itself entry by entry, sums each row from the zero word, and stores
  the 4096 sums as a column [4096, 1]; it does the same with c and stores the sums as a row [1, 4096].  Read at
  (r, 0) the column holds the squared length of point r of x, and read at (0, j) the row holds the squared length of
  point j of c — the very sums the kernel matrix is written with.
-/
import proofs.«134207_j30511447670912_2_alg».proof.Proof.Gen.KernelIdeal.Frame
import proofs.«134207_j30511447670912_2_alg».proof.Proof.Gaussian
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Lengths

open Cert.KernelIdeal Cert.KernelIdeal.Gen Idealize.ShloMosaic Idealize.ShloMosaic.TcCoe Idealize.SL.Sem
open Idealize.ShloMosaic.StableHlo Idealize.ShloMosaic.ValueIdx

/-- The row sums of the entrywise square, started from the zero word: at `r`, the squared length of point `r`. -/
theorem rowSums_apply (x : Gaussian.Points) (r : Fin 4096) :
    Host.reduceAdd (F := Ideal) (mulf x x) (constant (F := Ideal) S_ .f32 0x00000000#32) reducesTo_S4096x2048_S4096_d1 h_S_ (ix1 r)
      = Gaussian.sqLen x r := by
  simp only [Host.reduceAdd, Ideal.hostReduceAdd_def]
  rw [Ideal.hostReduceAdd_single reducesTo_S4096x2048_S4096_d1 (by decide)]
  refine congrArg (_ + ·) (Finset.sum_congr rfl fun k _ => ?_)
  exact congrArg (fun i => x i * x i) (funext fun a => Fin.ext (by match a with | ⟨0, _⟩ => rfl | ⟨1, _⟩ => rfl))

variable (m : (ℓ : Loc nD τ sig) → Buf (Elt Ideal) ℓ)

/-- The column of squared lengths of x as the region finds it: the host operations' term. -/
theorem column_eq (c : Dev nD) :
    (V m c main_v2 : S4096x1.Idx → EReal)
      = broadcastInDim S4096x1 ![0] bcast_S4096_S4096x1_0
          (Host.reduceAdd (F := Ideal) (mulf (m ((c : Thread nD τ).loc main_arg0)) (m ((c : Thread nD τ).loc main_arg0)))
            (constant (F := Ideal) S_ .f32 0x00000000#32) reducesTo_S4096x2048_S4096_d1 h_S_) := by
  dsimp only [Gen.V, Gen.hostOps0]; after_results

/-- The row of squared lengths of c as the region finds it: the host operations' term. -/
theorem row_eq (c : Dev nD) :
    (V m c main_v5 : S1x4096.Idx → EReal)
      = broadcastInDim S1x4096 ![1] bcast_S4096_S1x4096_1
          (Host.reduceAdd (F := Ideal) (mulf (m ((c : Thread nD τ).loc main_arg1)) (m ((c : Thread nD τ).loc main_arg1)))
            (constant (F := Ideal) S_ .f32 0x00000000#32) reducesTo_S4096x2048_S4096_d1 h_S_) := by
  dsimp only [Gen.V, Gen.hostOps0]; after_results

/-- The column at `(r, 0)` is the squared length of point `r` of x. -/
theorem column_apply (c : Dev nD) (r : Fin 4096) :
    (V m c main_v2 : S4096x1.Idx → EReal) (ix2 r (0 : Fin 1)) = Gaussian.sqLen (m ((c : Thread nD τ).loc main_arg0)) r := by
  rw [column_eq]
  refine (broadcastInDim_apply _ bcast_S4096_S4096x1_0 _ (ix2 r (0 : Fin 1)) (ix1 r) (fun a => ?_)).trans (rowSums_apply _ r)
  match a with
  | ⟨0, _⟩ => show r.val = if (4096 : Nat) = 1 then 0 else r.val; rw [if_neg (by decide)]

/-- The row at `(0, j)` is the squared length of point `j` of c. -/
theorem row_apply (c : Dev nD) (j : Fin 4096) :
    (V m c main_v5 : S1x4096.Idx → EReal) (ix2 (0 : Fin 1) j) = Gaussian.sqLen (m ((c : Thread nD τ).loc main_arg1)) j := by
  rw [row_eq]
  refine (broadcastInDim_apply _ bcast_S4096_S1x4096_1 _ (ix2 (0 : Fin 1) j) (ix1 j) (fun a => ?_)).trans (rowSums_apply _ j)
  match a with
  | ⟨0, _⟩ => show j.val = if (4096 : Nat) = 1 then 0 else j.val; rw [if_neg (by decide)]

end Cert.KernelIdeal.Lengths

end
-- ==== Proof.TilesCover.lean ====
/-
  The 64 tiles make the whole kernel matrix.

  Grid point t works on tile (a, b) of the 4096 × 4096 result, a < 4 and b < 16: rows a·1024 … a·1024 + 1023 and
  columns b·256 … b·256 + 255.  Its four input blocks are rows a·1024 + p of x, rows b·256 + q of c, entries
  a·1024 + p of the column of squared lengths of x and entries b·256 + q of the row of squared lengths of c.  So the
  tile's entry (p, q) is the Gaussian kernel matrix's entry (a·1024 + p, b·256 + q): what a point writes back is its
  tile of ONE matrix.  Every (row, column) lies in the tile (row / 1024, column / 256), so the tiles cover the
  result, and after the run the result array is the Gaussian kernel matrix of the two argument arrays.
-/
import proofs.«134207_j30511447670912_2_alg».proof.Proof.Gen.KernelIdeal.Value
import proofs.«134207_j30511447670912_2_alg».proof.Proof.TileEntry
import proofs.«134207_j30511447670912_2_alg».proof.Proof.SquaredLengths

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index maps over the grid: the blocks of x and of its squared lengths follow the tile's row index,
    those of c and of its squared lengths the tile's column index, and a tile index is below (4, 16). -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 15 :=
  (by decide +kernel : ∀ t : Fin grid0.N, _)

/-- Every tile index below (4, 16) is some grid point's. -/
theorem index_onto : ∀ (a : Fin 4) (b : Fin 16), ∃ t : Fin cfg0.N, win0_4.index t = ![a.val, b.val] :=
  (by decide +kernel : ∀ (a : Fin 4) (b : Fin 16), ∃ t : Fin grid0.N, win0_4.index t = ![a.val, b.val])

/-- One tile entry from blocks that are re-indexings of whole arrays: if the blocks' rows `p` and `q` are rows `r` of
    `X` and `j` of `C`, and the two blocks of squared lengths read those of `r` and `j`, the stored value is entry
    `(r, j)` of the kernel matrix. -/
theorem tile_entry (X C : Gaussian.Points) (col : S4096x1.Idx → EReal) (row : S1x4096.Idx → EReal)
    (e0 : S1024x2048.Idx → S4096x2048.Idx) (e1 : S256x2048.Idx → S4096x2048.Idx)
    (e2 : S1024x1.Idx → S4096x1.Idx) (e3 : S1x256.Idx → S1x4096.Idx)
    (p : Fin 1024) (q : Fin 256) (r j : Fin 4096)
    (hcol : col (ix2 r (0 : Fin 1)) = Gaussian.sqLen X r) (hrow : row (ix2 (0 : Fin 1) j) = Gaussian.sqLen C j)
    (h0 : ∀ k : Fin 2048, e0 (ix2 p k) = ix2 r k) (h1 : ∀ k : Fin 2048, e1 (ix2 q k) = ix2 j k)
    (h2 : e2 (ix2 p (0 : Fin 1)) = ix2 r (0 : Fin 1)) (h3 : e3 (ix2 (0 : Fin 1) q) = ix2 (0 : Fin 1) j) :
    k0_pay1 (F := Ideal) (fun y => X (e0 y)) (fun y => C (e1 y)) (fun y => col (e2 y)) (fun y => row (e3 y)) (ix2 p q)
      = Gaussian.entry X C r j := by
  rw [Tile.entry_eq]
  simp only [h0, h1, h2, h3, hcol, hrow]
  rfl

/-- The block of x at point `t`: x read through the block's embedding. -/
theorem block_x (c : Dev nD) (t : Fin cfg0.N) :
    iblk m c 0 t = fun y : S1024x2048.Idx => m ((c : Thread nD τ).loc main_arg0) (((cfg0.win 0).blk t).view.emb y) := by
  unfold iblk
  funext y
  show V m c main_arg0 _ = _
  rw [V_main_arg0]

/-- The block of c at point `t`. -/
theorem block_c (c : Dev nD) (t : Fin cfg0.N) :
    iblk m c 1 t = fun y : S256x2048.Idx => m ((c : Thread nD τ).loc main_arg1) (((cfg0.win 1).blk t).view.emb y) := by
  unfold iblk
  funext y
  show V m c main_arg1 _ = _
  rw [V_main_arg1]

/-- The block of the column of squared lengths at point `t`. -/
theorem block_col (c : Dev nD) (t : Fin cfg0.N) :
    iblk m c 2 t = fun y : S1024x1.Idx => (V m c main_v2 : S4096x1.Idx → EReal) (((cfg0.win 2).blk t).view.emb y) := by
  unfold iblk
  rfl

/-- The block of the row of squared lengths at point `t`. -/
theorem block_row (c : Dev nD) (t : Fin cfg0.N) :
    iblk m c 3 t = fun y : S1x256.Idx => (V m c main_v5 : S1x4096.Idx → EReal) (((cfg0.win 3).blk t).view.emb y) := by
  unfold iblk
  rfl

/-- WHAT POINT `t` WRITES BACK is its tile of the Gaussian kernel matrix of the two argument arrays. -/
theorem flushed_eq (c : Dev nD) (t : Fin cfg0.N) :
    (dats m 0 c).flushed 4 t
      = ((cfg0.win 4).blk t).view.read (Elt Ideal)
          (Gaussian.matrix (m ((c : Thread nD τ).loc main_arg0)) (m ((c : Thread nD τ).loc main_arg1))) := by
  rw [Value.flushed4]
  unfold out0_4
  rw [View.canon_unit_zero origin]
  simp only [View.ld_unit_zero (S := S1024x2048) origin, View.ld_unit_zero (S := S256x2048) origin,
    View.ld_unit_zero (S := S1024x1) origin, View.ld_unit_zero (S := S1x256) origin]
  rw [block_x, block_c, block_col, block_row]
  obtain ⟨f0, f0', f1, f1', f2, f2', f3, f3', b0, b1⟩ := index_facts t
  refine funext fun (y : S1024x256.Idx) => ?_
  obtain ⟨p, q, rfl⟩ : ∃ (p : Fin 1024) (q : Fin 256), y = ix2 p q := ⟨y 0, y 1, eq_ix2 y⟩
  have hp : p.val < 1024 := p.isLt
  have hq : q.val < 256 := q.isLt
  let r : Fin 4096 := ⟨win0_4.index t (0 : Fin 2) * 1024 + p.val, by omega⟩
  let j : Fin 4096 := ⟨win0_4.index t (1 : Fin 2) * 256 + q.val, by omega⟩
  have h4 : ((cfg0.win 4).blk t).view.emb (ix2 p q) = ix2 r j := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 256 + 1 * q.val = win0_4.index t (1 : Fin 2) * 256 + q.val; omega
  have h0 : ∀ k : Fin 2048, ((cfg0.win 0).blk t).view.emb (ix2 p k) = ix2 r k := fun k => by
    have hk : k.val < 2048 := k.isLt
    funext a; apply Fin.ext
    match a with
    | ⟨0, _⟩ => show win0_0.index t (0 : Fin 2) * 1024 + 1 * p.val = win0_4.index t (0 : Fin 2) * 1024 + p.val; omega
    | ⟨1, _⟩ => show win0_0.index t (1 : Fin 2) * 2048 + 1 * k.val = k.val; omega
  have h1 : ∀ k : Fin 2048, ((cfg0.win 1).blk t).view.emb (ix2 q k) = ix2 j k := fun k => by
    have hk : k.val < 2048 := k.isLt
    funext a; apply Fin.ext
    match a with
    | ⟨0, _⟩ => show win0_1.index t (0 : Fin 2) * 256 + 1 * q.val = win0_4.index t (1 : Fin 2) * 256 + q.val; omega
    | ⟨1, _⟩ => show win0_1.index t (1 : Fin 2) * 2048 + 1 * k.val = k.val; omega
  have h2 : ((cfg0.win 2).blk t).view.emb (ix2 p (0 : Fin 1)) = ix2 r (0 : Fin 1) := by
    funext a; apply Fin.ext
    match a with
    | ⟨0, _⟩ => show win0_2.index t (0 : Fin 2) * 1024 + 1 * p.val = win0_4.index t (0 : Fin 2) * 1024 + p.val; omega
    | ⟨1, _⟩ => show win0_2.index t (1 : Fin 2) * 1 + 1 * 0 = 0; omega
  have h3 : ((cfg0.win 3).blk t).view.emb (ix2 (0 : Fin 1) q) = ix2 (0 : Fin 1) j := by
    funext a; apply Fin.ext
    match a with
    | ⟨0, _⟩ => show win0_3.index t (0 : Fin 2) * 1 + 1 * 0 = 0; omega
    | ⟨1, _⟩ => show win0_3.index t (1 : Fin 2) * 256 + 1 * q.val = win0_4.index t (1 : Fin 2) * 256 + q.val; omega
  show k0_pay1 (F := Ideal) _ _ _ _ (ix2 p q) = Gaussian.matrix _ _ (((cfg0.win 4).blk t).view.emb (ix2 p q))
  rw [h4, Gaussian.matrix_ix2]
  exact tile_entry (m ((c : Thread nD τ).loc main_arg0)) (m ((c : Thread nD τ).loc main_arg1))
    (V m c main_v2) (V m c main_v5)
    (fun y => ((cfg0.win 0).blk t).view.emb y) (fun y => ((cfg0.win 1).blk t).view.emb y)
    (fun y => ((cfg0.win 2).blk t).view.emb y) (fun y => ((cfg0.win 3).blk t).view.emb y)
    p q r j (Lengths.column_apply m c r) (Lengths.row_apply m c j) h0 h1 h2 h3

/-- An index of the result is in point `t`'s tile iff each coordinate is in the tile's range on its axis. -/
theorem mem_tile (t : Fin cfg0.N) (i : S4096x4096.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v6).slice (win0_4.rect t)).set ↔ _
  rw [View.set_slice_whole, Rect.mem_set_unit]
  exact Iff.rfl

/-- Every index of the result lies in some point's tile: the tile of its row's and its column's quotients. -/
theorem tiles_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- THE RESULT ARRAY after the run is the Gaussian kernel matrix of the two argument arrays. -/
theorem final (c : Dev nD) :
    (dats m 0 c).arrAt 4 cfg0.N
      = Gaussian.matrix (m ((c : Thread nD τ).loc main_arg0)) (m ((c : Thread nD τ).loc main_arg1)) :=
  (dats m 0 c).arrAt_eq_of_cover 4 _ (fun t _ => flushed_eq m c t) tiles_cover

/-- The kernel's run: every weakly fair execution ends with the result at the Gaussian kernel matrix of the
    arguments, and the arguments unchanged. -/
theorem run : θ_run defs (onTc (τ := τ) (main (F := Ideal))) ⟨m, fun _ => 0, ρ⟩ fun r => ∀ c : Dev nD,
      r.2.mem ((c : Thread nD τ).loc main_v6)
        = Gaussian.matrix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.ReferenceGaussian.lean ====
/-
  The reference program computes the Gaussian kernel matrix.

  Its last stage, read at entry (r, j), is exp of γ times (column of squared lengths of x, broadcast along rows, plus
  row of squared lengths of c, broadcast along columns, minus 2 times the contraction of row r of x with row j of c).
  Reading each stage at an index follows the broadcasts back to the two sums of squares and the sum of products; the
  composed index maps send (r, j) and a summation index k to (r, k) in x and (j, k) in c.
-/
import proofs.«134207_j30511447670912_2_alg».proof.Proof.Gen.ReferenceIdeal.Read
import proofs.«134207_j30511447670912_2_alg».proof.Proof.Gaussian

noncomputable section

namespace Cert.ReferenceIdeal.RefValue

open Cert.ReferenceIdeal Cert.ReferenceIdeal.Read Idealize.ShloMosaic Idealize.ShloMosaic.ValueIdx

/-- Following the column of squared lengths of `x` back from entry (r, j): summand k is x at (r, k). -/
theorem idx_x (r j : Fin 4096) (k : Fin 2048) :
    idx_main_v1 (idx_main_v2 (idx_main_v7 (ix2 r j))) k = ix2 r k :=
  funext fun a => Fin.ext (by match a with | ⟨0, _⟩ => rfl | ⟨1, _⟩ => rfl)

/-- Following the row of squared lengths of `c` back from entry (r, j): summand k is c at (j, k). -/
theorem idx_c (r j : Fin 4096) (k : Fin 2048) :
    idx_main_v4 (idx_main_v6 (idx_main_v8 (ix2 r j))) k = ix2 j k :=
  funext fun a => Fin.ext (by match a with | ⟨0, _⟩ => rfl | ⟨1, _⟩ => rfl)

/-- The contraction's left factor at (r, j), k is x at (r, k). -/
theorem idx_l (r j : Fin 4096) (k : Fin 2048) : lidx_main_v5 (ix2 r j) k = ix2 r k :=
  funext fun a => Fin.ext (by match a with | ⟨0, _⟩ => rfl | ⟨1, _⟩ => rfl)

/-- The contraction's right factor at (r, j), k is c at (j, k). -/
theorem idx_r (r j : Fin 4096) (k : Fin 2048) : ridx_main_v5 (ix2 r j) k = ix2 j k :=
  funext fun a => Fin.ext (by match a with | ⟨0, _⟩ => rfl | ⟨1, _⟩ => rfl)

/-- The reference's result, as a function of its two argument arrays, is the Gaussian kernel matrix. -/
theorem result_eq (x c : Gaussian.Points) : val_main_v15 (F := Ideal) x c = Gaussian.matrix x c := by
  funext i
  obtain ⟨r, j, rfl⟩ : ∃ (r j : Fin 4096), i = ix2 r j := ⟨i 0, i 1, eq_ix2 i⟩
  rw [val_main_v15_apply, val_main_v14_apply, val_main_v13_apply, val_main_cst_2_apply, val_main_v12_apply,
    val_main_v9_apply, val_main_v7_apply, val_main_v2_apply, val_main_v1_apply, val_main_v8_apply, val_main_v6_apply,
    val_main_v4_apply, val_main_v11_apply, val_main_v10_apply, val_main_cst_1_apply, val_main_v5_apply]
  simp only [val_main_v0_apply, val_main_v3_apply, val_main_cst_apply, val_main_cst_0_apply, idx_x, idx_c, idx_l, idx_r]
  rfl

end Cert.ReferenceIdeal.RefValue

end
-- ==== Proof.lean ====
/-
  A Gaussian kernel matrix computed tile by tile equals the one computed whole.

  Both programs take two families of 4096 points of dimension 2048, x and c, and return the 4096 × 4096 matrix with
  entries exp(γ · (|x_r|² + |c_j|² − 2·⟨x_r, c_j⟩)), γ the float word for −0.05.  Both first sum the squares of
  each row of x and of c.  The reference then contracts x with c in one product and combines whole arrays.  The
  kernel walks a 4 × 16 grid of tiles of 1024 × 256 entries; at each tile it contracts the 1024 rows of x with the
  256 rows of c that the tile needs, adds the matching squared lengths, and applies the same exponential.
  Over the extended reals a change of float format is the identity, a contraction into a zero tile is the plain sum
  of products, and sums do not depend on order, so every entry is the same expression of the same arguments on both
  sides; no finiteness of the inputs is used.  The pieces:
    Gaussian            the matrix as one function of the two arrays;
    ReferenceGaussian   the reference's result is that function;
    TileEntry           one entry of the tile the kernel body stores;
    SquaredLengths      the two arrays of squared lengths the region is launched on;
    TilesCover          a point writes its tile of that one matrix, and the tiles cover the result.
  The three frames are the generated frame runs (the reference's is its generated run with the result dropped),
  and the idealized kernel is the kernel's own text, so nothing is owed for it.
-/
import proofs.«134207_j30511447670912_2_alg».proof.Defs
import proofs.«134207_j30511447670912_2_alg».proof.Proof.Gen.Kernel
import proofs.«134207_j30511447670912_2_alg».proof.Proof.Gen.Kernel.Skeleton
import proofs.«134207_j30511447670912_2_alg».proof.Proof.Gen.Kernel.Launch
import proofs.«134207_j30511447670912_2_alg».proof.Proof.Gen.Kernel.Points
import proofs.«134207_j30511447670912_2_alg».proof.Proof.Gen.Kernel.Frame
import proofs.«134207_j30511447670912_2_alg».proof.Proof.Gen.KernelIdeal
import proofs.«134207_j30511447670912_2_alg».proof.Proof.Gen.KernelIdeal.Skeleton
import proofs.«134207_j30511447670912_2_alg».proof.Proof.Gen.KernelIdeal.Launch
import proofs.«134207_j30511447670912_2_alg».proof.Proof.Gen.KernelIdeal.Points
import proofs.«134207_j30511447670912_2_alg».proof.Proof.Gen.KernelIdeal.Frame
import proofs.«134207_j30511447670912_2_alg».proof.Proof.Gen.ReferenceIdeal
import proofs.«134207_j30511447670912_2_alg».proof.Proof.Gen.KernelIdeal.Value
import proofs.«134207_j30511447670912_2_alg».proof.Proof.Gen.ReferenceIdeal.Run
import proofs.«134207_j30511447670912_2_alg».proof.Proof.Gen.ReferenceIdeal.Read
import proofs.«134207_j30511447670912_2_alg».proof.Proof.Gen.Pre_finite_inputs
import proofs.«134207_j30511447670912_2_alg».proof.Proof.TilesCover
import proofs.«134207_j30511447670912_2_alg».proof.Proof.ReferenceGaussian
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and c, the kernel's result array ends at the Gaussian kernel matrix of its
    arguments (the tiles cover it) and the reference's result at the same matrix of its own, equal, arguments. -/
theorem algebraic : Cert.algebraic_KernelIdeal_ReferenceIdeal := by
  intro m ρ m' ρ' _ hagree
  refine ⟨fun c => Gaussian.matrix (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
